-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1250000 : Shape := ⟨2, ![2, 1250000]⟩
abbrev S1000000x64 : Shape := ⟨2, ![1000000, 64]⟩
abbrev S128x64 : Shape := ⟨2, ![128, 64]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : IVec S2x1250000 32) (main_arg1 : FVec F S1000000x64 .f32) (main_arg2 : FVec F S128x64 .f32) (main_arg3 : FVec F S128 .f32) (main_arg4 : FVec F S64x128 .f32) (main_arg5 : FVec F S64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_v13 main_v16
-- ==== Kernel.lean ====
abbrev S2x1250000 : Shape := ⟨2, ![2, 1250000]⟩
abbrev S1000000x64 : Shape := ⟨2, ![1000000, 64]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x128 : Shape := ⟨2, ![1, 128]⟩
abbrev S1x64 : Shape := ⟨2, ![1, 64]⟩
abbrev S8000x64 : Shape := ⟨2, ![8000, 64]⟩
abbrev S8000x128 : Shape := ⟨2, ![8000, 128]⟩

abbrev nBuf : Space → Nat
  | .hbm => 35
  | .vmem => 10
  | .smem => 0
  | _ => 0

abbrev bufTy : (tb : Table) → Fin (tcTables nBuf tb) → BufTy
  | .hbm, ⟨0, _⟩ => ⟨S2x1250000, .i32⟩
  | .hbm, ⟨1, _⟩ => ⟨S1000000x64, .f32⟩
  | .hbm, ⟨2, _⟩ => ⟨S128x64, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S1x1250000, .i32⟩
  | .hbm, ⟨7, _⟩ => ⟨S1250000, .i32⟩
  | .hbm, ⟨8, _⟩ => ⟨S1x1250000, .i32⟩
  | .hbm, ⟨9, _⟩ => ⟨S1250000, .i32⟩
  | .hbm, ⟨10, _⟩ => ⟨S_, .f32⟩
  | .hbm, ⟨11, _⟩ => ⟨S1000000x64, .f32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .f32⟩
  | .hbm, ⟨21, _⟩ => ⟨S_, .i32⟩
  | .hbm, ⟨22, _⟩ => ⟨S1250000, .i32⟩
  | .hbm, ⟨23, _⟩ => ⟨S1250000, .i1⟩
  | .hbm, ⟨24, _⟩ => ⟨S_, .i32⟩
  | .hbm, ⟨25, _⟩ => ⟨S1250000, .i32⟩
  | .hbm, ⟨26, _⟩ => ⟨S1250000, .i32⟩
  | .hbm, ⟨27, _⟩ => ⟨S1250000, .i32⟩
  | .hbm, ⟨28, _⟩ => ⟨S1250000x1, .i32⟩
  | .hbm, ⟨29, _⟩ => ⟨S1000000x64, .f32⟩
  | .hbm, ⟨30, _⟩ => ⟨S64x128, .f32⟩
  | .hbm, ⟨31, _⟩ => ⟨S128x64, .f32⟩
  | .hbm, ⟨32, _⟩ => ⟨S1x128, .f32⟩
  | .hbm, ⟨33, _⟩ => ⟨S1x64, .f32⟩
  | .hbm, ⟨34, _⟩ => ⟨S1000000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S64x128, .f32⟩
  | .local _ .vmem, ⟨5, _⟩ => ⟨S1x128, .f32⟩
  | .local _ .vmem, ⟨6, _⟩ => ⟨S128x64, .f32⟩
  | .local _ .vmem, ⟨7, _⟩ => ⟨S1x64, .f32⟩
  | .local _ .vmem, ⟨8, _⟩ => ⟨S8000x64, .f32⟩
  | .local _ .vmem, ⟨9, _⟩ => ⟨S8000x64, .f32⟩
  | _, _ => ⟨S2x1250000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1000000x64 : S_.BroadcastsInDim S1000000x64 (![] : Fin 0 → Fin S1000000x64.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  transposes_S128x64_S64x128_1_0 : S128x64.Transposes [1, 0] S64x128
  transposes_S64x128_S128x64_1_0 : S64x128.Transposes [1, 0] S128x64
  shapeCasts_S128_S1x128 : S128.ShapeCasts S1x128
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  gather_S1000000x64_S1250000x1_S1250000x64_1_0_n_n_0_1_164_wf : GatherDims.WF S1000000x64 S1250000x1 S1250000x64 [1] [0] [] [0] [] 1 ![1, 64]
  scatter_S1000000x64_S1250000x1_S1250000x64_1_0_0_1_wf : ScatterDims.WF S1000000x64 S1250000x1 S1250000x64 [1] [0] [0] 1
  dot_S8000x64_S64x128_S8000x128_1_0_0_1_n_n_wf : DotDims.WF S8000x64 S64x128 S8000x128 [1] [0] [0] [1] [] []
  dot_S8000x128_S128x64_S8000x64_1_0_0_1_n_n_wf : DotDims.WF S8000x128 S128x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .f32 = 32 ∨ (Rect.block (s := S1000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1000000x64.size a
  hwx0_1 : ∀ i : grid0.Coords, EltTy.bits .f32 = 32 ∨ (Rect.block (s := S1000000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x64.size a ≤ S1000000x64.size a
  hwx0_6 : ∀ i : grid0.Coords, EltTy.bits .f32 = 32 ∨ (Rect.block (s := S1000000x64) S8000x64.size (cc0_transform_6 i) (hinb0_6 i)).WholeWords (EltTy.packing .f32)

variable [Facts₀]

def gather_S1000000x64_S1250000x1_S1250000x64_1_0_n_n_0_1_164 : GatherDims S1000000x64 S1250000x1 S1250000x64 where
  offsetDims := [1]
  collapsedSliceDims := [0]
  operandBatchingDims := []
  startIndicesBatchingDims := []
  startIndexMap := [0]
  indexVectorDim := 1
  sliceSizes := ![1, 64]
  wf := gather_S1000000x64_S1250000x1_S1250000x64_1_0_n_n_0_1_164_wf
def scatter_S1000000x64_S1250000x1_S1250000x64_1_0_0_1 : ScatterDims S1000000x64 S1250000x1 S1250000x64 where
  updateWindowDims := [1]
  insertedWindowDims := [0]
  scatterDimsToOperandDims := [0]
  indexVectorDim := 1
  wf := scatter_S1000000x64_S1250000x1_S1250000x64_1_0_0_1_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf

abbrev win0_0 : Pipeline.Window sig grid0 :=
  Pipeline.Window.ofSpec (Memref.whole main_v18) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S8000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x1250000 : Shape := ⟨2, ![2, 1250000]⟩
abbrev S1000000x64 : Shape := ⟨2, ![1000000, 64]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1000000x128 : Shape := ⟨2, ![1000000, 128]⟩
abbrev S1x128 : Shape := ⟨2, ![1, 128]⟩
abbrev S1x64 : Shape := ⟨2, ![1, 64]⟩

abbrev nBuf : Space → Nat
  | .hbm => 47
  | .vmem => 0
  | .smem => 0
  | _ => 0

abbrev bufTy : (tb : Table) → Fin (tcTables nBuf tb) → BufTy
  | .hbm, ⟨0, _⟩ => ⟨S2x1250000, .i32⟩
  | .hbm, ⟨1, _⟩ => ⟨S1000000x64, .f32⟩
  | .hbm, ⟨2, _⟩ => ⟨S128x64, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S1x1250000, .i32⟩
  | .hbm, ⟨7, _⟩ => ⟨S1250000, .i32⟩
  | .hbm, ⟨8, _⟩ => ⟨S1x1250000, .i32⟩
  | .hbm, ⟨9, _⟩ => ⟨S1250000, .i32⟩
  | .hbm, ⟨10, _⟩ => ⟨S_, .f32⟩
  | .hbm, ⟨11, _⟩ => ⟨S1000000x64, .f32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .f32⟩
  | .hbm, ⟨21, _⟩ => ⟨S_, .i32⟩
  | .hbm, ⟨22, _⟩ => ⟨S1250000, .i32⟩
  | .hbm, ⟨23, _⟩ => ⟨S1250000, .i1⟩
  | .hbm, ⟨24, _⟩ => ⟨S_, .i32⟩
  | .hbm, ⟨25, _⟩ => ⟨S1250000, .i32⟩
  | .hbm, ⟨26, _⟩ => ⟨S1250000, .i32⟩
  | .hbm, ⟨27, _⟩ => ⟨S1250000, .i32⟩
  | .hbm, ⟨28, _⟩ => ⟨S1250000x1, .i32⟩
  | .hbm, ⟨29, _⟩ => ⟨S1000000x64, .f32⟩
  | .hbm, ⟨30, _⟩ => ⟨S64x128, .f32⟩
  | .hbm, ⟨31, _⟩ => ⟨S1000000x128, .f32⟩
  | .hbm, ⟨32, _⟩ => ⟨S1x128, .f32⟩
  | .hbm, ⟨33, _⟩ => ⟨S1000000x128, .f32⟩
  | .hbm, ⟨34, _⟩ => ⟨S1000000x128, .f32⟩
  | .hbm, ⟨35, _⟩ => ⟨S_, .f32⟩
  | .hbm, ⟨36, _⟩ => ⟨S1000000x128, .f32⟩
  | .hbm, ⟨37, _⟩ => ⟨S1000000x128, .f32⟩
  | .hbm, ⟨38, _⟩ => ⟨S128x64, .f32⟩
  | .hbm, ⟨39, _⟩ => ⟨S1000000x64, .f32⟩
  | .hbm, ⟨40, _⟩ => ⟨S1x64, .f32⟩
  | .hbm, ⟨41, _⟩ => ⟨S1000000x64, .f32⟩
  | .hbm, ⟨42, _⟩ => ⟨S1000000x64, .f32⟩
  | .hbm, ⟨43, _⟩ => ⟨S_, .f32⟩
  | .hbm, ⟨44, _⟩ => ⟨S1000000x64, .f32⟩
  | .hbm, ⟨45, _⟩ => ⟨S1000000x64, .f32⟩
  | .hbm, ⟨46, _⟩ => ⟨S1000000x64, .f32⟩
  | _, _ => ⟨S2x1250000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call1_cst : Ref sig .tc := ⟨.hbm, 43, rfl⟩
abbrev main_call1_v0 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1000000x64 : S_.BroadcastsInDim S1000000x64 (![] : Fin 0 → Fin S1000000x64.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  transposes_S128x64_S64x128_1_0 : S128x64.Transposes [1, 0] S64x128
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  transposes_S64x128_S128x64_1_0 : S64x128.Transposes [1, 0] S128x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  gather_S1000000x64_S1250000x1_S1250000x64_1_0_n_n_0_1_164_wf : GatherDims.WF S1000000x64 S1250000x1 S1250000x64 [1] [0] [] [0] [] 1 ![1, 64]
  scatter_S1000000x64_S1250000x1_S1250000x64_1_0_0_1_wf : ScatterDims.WF S1000000x64 S1250000x1 S1250000x64 [1] [0] [0] 1
  dot_S1000000x64_S64x128_S1000000x128_1_0_0_1_n_n_wf : DotDims.WF S1000000x64 S64x128 S1000000x128 [1] [0] [0] [1] [] []
  dot_S1000000x128_S128x64_S1000000x64_1_0_0_1_n_n_wf : DotDims.WF S1000000x128 S128x64 S1000000x64 [1] [0] [0] [1] [] []

variable [Facts₀]

def gather_S1000000x64_S1250000x1_S1250000x64_1_0_n_n_0_1_164 : GatherDims S1000000x64 S1250000x1 S1250000x64 where
  offsetDims := [1]
  collapsedSliceDims := [0]
  operandBatchingDims := []
  startIndicesBatchingDims := []
  startIndexMap := [0]
  indexVectorDim := 1
  sliceSizes := ![1, 64]
  wf := gather_S1000000x64_S1250000x1_S1250000x64_1_0_n_n_0_1_164_wf
def scatter_S1000000x64_S1250000x1_S1250000x64_1_0_0_1 : ScatterDims S1000000x64 S1250000x1 S1250000x64 where
  updateWindowDims := [1]
  insertedWindowDims := [0]
  scatterDimsToOperandDims := [0]
  indexVectorDim := 1
  wf := scatter_S1000000x64_S1250000x1_S1250000x64_1_0_0_1_wf
def dot_S1000000x64_S64x128_S1000000x128_1_0_0_1_n_n : DotDims S1000000x64 S64x128 S1000000x128 where
  lhsContracting := [1]
  rhsContracting := [0]
  lhsNonContracting := [0]
  rhsNonContracting := [1]
  lhsBatch := []
  rhsBatch := []
  wf := dot_S1000000x64_S64x128_S1000000x128_1_0_0_1_n_n_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf

class Facts : Prop extends Facts₀ where

variable [Facts]
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.Spec.lean ====
/-
  The node update of a two-layer perceptron with a residual connection, at the extended reals.

  Given a table of aggregated messages `M` and a table of embeddings `E`, both with one row of 64 entries per node, two
  weight tables `W1` (64 by 128) and `W2` (128 by 64) and two bias rows `B1`, `B2`, node `i`'s new embedding is

      E (i, q) + max (∑ k, max (∑ l, M (i, l) * W1 (l, k) + B1 (0, k)) z * W2 (k, q) + B2 (0, q)) z

  where `z` is the threshold of the rectifier. Row `i` of the result depends on row `i` of `M` and of `E` only, so
  the update of a block of rows is the update of the whole table read at those rows (`updateAt_rows`): this is what
  lets a computation that walks the table block by block agree with one that treats it whole.
-/
import Idealize.ShloMosaic.PureOps.Ideal.Laws
import Idealize.ShloMosaic.Lib.ValueIdx

noncomputable section

open scoped BigOperators

namespace Cert.MlpResidual

open Idealize.ShloMosaic Idealize.ShloMosaic.ValueIdx

/-- Hidden unit `k` of node `i`: the rectified affine image of the node's message row. -/
def hidden {N : Nat} (M : (⟨2, ![N, 64]⟩ : Shape).Idx → EReal) (W1 : (⟨2, ![64, 128]⟩ : Shape).Idx → EReal)
    (B1 : (⟨2, ![1, 128]⟩ : Shape).Idx → EReal) (z : EReal) (i : Fin N) (k : Fin 128) : EReal :=
  max (∑ l : Fin 64, M (ix2 i l) * W1 (ix2 l k) + B1 (ix2 (0 : Fin 1) k)) z

/-- Entry `q` of node `i`'s new embedding: the old entry plus the rectified affine image of the hidden row. -/
def updateAt {N : Nat} (M E : (⟨2, ![N, 64]⟩ : Shape).Idx → EReal) (W1 : (⟨2, ![64, 128]⟩ : Shape).Idx → EReal)
    (B1 : (⟨2, ![1, 128]⟩ : Shape).Idx → EReal) (W2 : (⟨2, ![128, 64]⟩ : Shape).Idx → EReal)
    (B2 : (⟨2, ![1, 64]⟩ : Shape).Idx → EReal) (z : EReal) (i : Fin N) (q : Fin 64) : EReal :=
  E (ix2 i q) + max (∑ k : Fin 128, hidden M W1 B1 z i k * W2 (ix2 k q) + B2 (ix2 (0 : Fin 1) q)) z

/-- The whole table of new embeddings. -/
def update {N : Nat} (M E : (⟨2, ![N, 64]⟩ : Shape).Idx → EReal) (W1 : (⟨2, ![64, 128]⟩ : Shape).Idx → EReal)
    (B1 : (⟨2, ![1, 128]⟩ : Shape).Idx → EReal) (W2 : (⟨2, ![128, 64]⟩ : Shape).Idx → EReal)
    (B2 : (⟨2, ![1, 64]⟩ : Shape).Idx → EReal) (z : EReal) : (⟨2, ![N, 64]⟩ : Shape).Idx → EReal :=
  fun j => updateAt M E W1 B1 W2 B2 z (j 0) (j 1)

theorem update_ix2 {N : Nat} (M E : (⟨2, ![N, 64]⟩ : Shape).Idx → EReal) (W1 : (⟨2, ![64, 128]⟩ : Shape).Idx → EReal)
    (B1 : (⟨2, ![1, 128]⟩ : Shape).Idx → EReal) (W2 : (⟨2, ![128, 64]⟩ : Shape).Idx → EReal)
    (B2 : (⟨2, ![1, 64]⟩ : Shape).Idx → EReal) (z : EReal) (i : Fin N) (q : Fin 64) :
    update M E W1 B1 W2 B2 z (ix2 i q) = updateAt M E W1 B1 W2 B2 z i q := rfl

/-- ROWS ARE INDEPENDENT. If row `p` of the tables `M'`, `E'` is row `i` of `M`, `E`, then node `p`'s update from the
    primed tables is node `i`'s update from the others: the sums range over the same entries. -/
theorem updateAt_rows {N N' : Nat} (M E : (⟨2, ![N, 64]⟩ : Shape).Idx → EReal)
    (M' E' : (⟨2, ![N', 64]⟩ : Shape).Idx → EReal) (W1 : (⟨2, ![64, 128]⟩ : Shape).Idx → EReal)
    (B1 : (⟨2, ![1, 128]⟩ : Shape).Idx → EReal) (W2 : (⟨2, ![128, 64]⟩ : Shape).Idx → EReal)
    (B2 : (⟨2, ![1, 64]⟩ : Shape).Idx → EReal) (z : EReal) (i : Fin N) (p : Fin N') (q : Fin 64)
    (hM : ∀ l : Fin 64, M' (ix2 p l) = M (ix2 i l)) (hE : E' (ix2 p q) = E (ix2 i q)) :
    updateAt M' E' W1 B1 W2 B2 z p q = updateAt M E W1 B1 W2 B2 z i q := by
  unfold updateAt hidden
  simp only [hM, hE]

end Cert.MlpResidual

end
-- ==== Proof.Payload.lean ====
/-
  What the kernel body stores, entry by entry.

  The body loads a block of 8000 message rows `x0`, the matching block of embedding rows `x1`, the two weight tables
  `x2` (64 by 128), `x4` (128 by 64) and the two bias rows `x3`, `x5`, and stores

      x1 + max (max (x0 · x2 + x3) 0 · x4 + x5) 0

  where `·` is a matrix product accumulated from zero and the bias rows are repeated down the 8000 rows. At the extended
  reals the narrowing of the products' operands to a shorter float format is the identity and each product is the plain
  finite sum over the contracted coordinate, so entry (p, q) of the stored block is `MlpResidual.updateAt` of the loaded
  blocks at row `p`, column `q`.
-/
import proofs.«174238_j87832081203928_2_alg».proof.Proof.Gen.KernelIdeal.Skeleton
import proofs.«174238_j87832081203928_2_alg».proof.Proof.LibTileMatmul
import proofs.«174238_j87832081203928_2_alg».proof.Proof.Spec
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx Cert.MlpResidual

/-- The rectifier's threshold: the word of the float zero, read at the extended reals. -/
abbrev zero : EReal := Ideal.ofBits .f32 0x00000000#32

/-- The first product (message rows by the first weight table) at (p, k): the sum over the 64 message entries. -/
theorem mm1_apply (A : FVec Ideal S8000x64 .bf16) (B : FVec Ideal S64x128 .bf16) (p : Fin 8000) (k : Fin 128) :
    matmul (F := Ideal) dot_S8000x64_S64x128_S8000x128_1_0_0_1_n_n none A B (constant (F := Ideal) S8000x128 .f32 0x00000000#32) (ix2 p k)
      = ∑ l : Fin 64, A (ix2 p l) * B (ix2 l k) :=
  TileMatmul.matmul_zero_apply (m := 8000) (k := 64) (n := 128) _ none A B p k

/-- The second product (hidden rows by the second weight table) at (p, q): the sum over the 128 hidden units. -/
theorem mm2_apply (A : FVec Ideal S8000x128 .bf16) (B : FVec Ideal S128x64 .bf16) (p : Fin 8000) (q : Fin 64) :
    matmul (F := Ideal) dot_S8000x128_S128x64_S8000x64_1_0_0_1_n_n none A B (constant (F := Ideal) S8000x64 .f32 0x00000000#32) (ix2 p q)
      = ∑ k : Fin 128, A (ix2 p k) * B (ix2 k q) :=
  TileMatmul.matmul_zero_apply (m := 8000) (k := 128) (n := 64) _ none A B p q

/-- ENTRY (p, q) OF THE STORED BLOCK is the node update of the loaded blocks at row `p`, column `q`. -/
theorem pay_apply (x0 x1 : Vec Ideal S8000x64 .f32) (x2 : Vec Ideal S64x128 .f32) (x3 : Vec Ideal S1x128 .f32)
    (x4 : Vec Ideal S128x64 .f32) (x5 : Vec Ideal S1x64 .f32) (p : Fin 8000) (q : Fin 64) :
    k0_pay1 (F := Ideal) x0 x2 x3 x4 x5 x1 (ix2 p q) = updateAt (N := 8000) x0 x1 x2 x3 x4 x5 zero p q := by
  unfold k0_pay1 updateAt Cert.MlpResidual.hidden
  simp only [shapeCast_self, addf_apply, maximumf_apply, truncf_apply, broadcast_apply, mm2_apply, mm1_apply,
    broadcastTo_1b_ab_apply]
  rfl

end Cert.KernelIdeal.Payload

end
-- ==== Proof.Blocks.lean ====
/-
  From the kernel's blocks to its result table.

  The kernel walks the million nodes in 125 blocks of 8000 rows. At block `t` the windows of the message table, of the
  embedding table and of the result all sit on rows `8000 t … 8000 t + 7999`, while the two weight tables and the two
  bias rows are staged whole. So what block `t` writes back — the body's stored block, `Payload.pay_apply` — is the
  node update of the whole tables read at those rows (`MlpResidual.updateAt_rows`: rows are independent), the 125
  blocks tile the result table, and the table ends holding `MlpResidual.update` of the arrays the kernel finds when it
  is launched. Every statement about a block is made over ARBITRARY tables first and instantiated afterwards.
-/
import proofs.«174238_j87832081203928_2_alg».proof.Proof.Gen.KernelIdeal.Value
import proofs.«174238_j87832081203928_2_alg».proof.Proof.Payload

noncomputable section

open scoped BigOperators

namespace Cert.KernelIdeal.Blocks

open Cert.KernelIdeal Cert.KernelIdeal.Gen Cert.KernelIdeal.Value Cert.KernelIdeal.Payload
open Idealize.ShloMosaic Idealize.ShloMosaic.TcCoe Idealize.SL.Sem Idealize.ShloMosaic.ValueIdx Cert.MlpResidual
open Idealize.ShloMosaic.Pipeline (Dat)

theorem hz : (![0, 0] : Fin 2 → Nat) = fun _ => 0 := funext fun a => by fin_cases a <;> rfl

/-- The printed index maps over the 125 blocks: the message, embedding and result windows sit on block row `t`, the
    weight and bias windows on their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 125 := lt_of_lt_of_eq t.isLt N_0

/-- Row `p` of block `t` is row `8000 t + p` of the table. -/
abbrev row (t : Fin cfg0.N) (p : Fin 8000) : Fin 1000000 := ⟨t.val * 8000 + p.val, by have := t_lt t; have := p.isLt; omega⟩

/-- Entry (p, q) of the message window's block `t` sits at (8000 t + p, q) of its table. -/
theorem emb0 (t : Fin cfg0.N) (p : Fin 8000) (q : Fin 64) : ((cfg0.win 0).blk t).view.emb (ix2 p q) = ix2 (row t p) q := by
  obtain ⟨e00, e01, -⟩ := idx_facts t
  funext a; apply Fin.ext
  match a with
  | ⟨0, _⟩ => show win0_0.index t (0 : Fin 2) * 8000 + 1 * p.val = t.val * 8000 + p.val; omega
  | ⟨1, _⟩ => show win0_0.index t (1 : Fin 2) * 64 + 1 * q.val = q.val; omega

/-- The same for the embedding window's block `t`. -/
theorem emb1 (t : Fin cfg0.N) (p : Fin 8000) (q : Fin 64) : ((cfg0.win 1).blk t).view.emb (ix2 p q) = ix2 (row t p) q := by
  obtain ⟨-, -, e10, e11, -⟩ := idx_facts t
  funext a; apply Fin.ext
  match a with
  | ⟨0, _⟩ => show win0_1.index t (0 : Fin 2) * 8000 + 1 * p.val = t.val * 8000 + p.val; omega
  | ⟨1, _⟩ => show win0_1.index t (1 : Fin 2) * 64 + 1 * q.val = q.val; omega

/-- And for the result window's block `t`. -/
theorem emb6 (t : Fin cfg0.N) (p : Fin 8000) (q : Fin 64) : ((cfg0.win 6).blk t).view.emb (ix2 p q) = ix2 (row t p) q := by
  obtain ⟨-, -, -, -, -, -, -, -, -, -, -, -, e60, e61⟩ := idx_facts t
  funext a; apply Fin.ext
  match a with
  | ⟨0, _⟩ => show win0_6.index t (0 : Fin 2) * 8000 + 1 * p.val = t.val * 8000 + p.val; omega
  | ⟨1, _⟩ => show win0_6.index t (1 : Fin 2) * 64 + 1 * q.val = q.val; omega

/-- The first weight table's window is staged whole: its one block, read through the window, is the table. -/
theorem whole2 (t : Fin cfg0.N) (A : S64x128.Idx → EReal) : ((cfg0.win 2).blk t).view.read (Elt Ideal) A = A := by
  obtain ⟨-, -, -, -, e0, e1, -⟩ := idx_facts t
  funext y
  show A (((cfg0.win 2).blk t).view.emb y) = A y
  congr 1
  funext a; apply Fin.ext
  match a with
  | ⟨0, _⟩ => show win0_2.index t (0 : Fin 2) * 64 + 1 * (y 0).val = (y 0).val; omega
  | ⟨1, _⟩ => show win0_2.index t (1 : Fin 2) * 128 + 1 * (y 1).val = (y 1).val; omega

/-- So is the first bias row's. -/
theorem whole3 (t : Fin cfg0.N) (A : S1x128.Idx → EReal) : ((cfg0.win 3).blk t).view.read (Elt Ideal) A = A := by
  obtain ⟨-, -, -, -, -, -, e0, e1, -⟩ := idx_facts t
  funext y
  show A (((cfg0.win 3).blk t).view.emb y) = A y
  congr 1
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- So is the second weight table's. -/
theorem whole4 (t : Fin cfg0.N) (A : S128x64.Idx → EReal) : ((cfg0.win 4).blk t).view.read (Elt Ideal) A = A := by
  obtain ⟨-, -, -, -, -, -, -, -, e0, e1, -⟩ := idx_facts t
  funext y
  show A (((cfg0.win 4).blk t).view.emb y) = A y
  congr 1
  funext a; apply Fin.ext
  match a with
  | ⟨0, _⟩ => show win0_4.index t (0 : Fin 2) * 128 + 1 * (y 0).val = (y 0).val; omega
  | ⟨1, _⟩ => show win0_4.index t (1 : Fin 2) * 64 + 1 * (y 1).val = (y 1).val; omega

/-- And the second bias row's. -/
theorem whole5 (t : Fin cfg0.N) (A : S1x64.Idx → EReal) : ((cfg0.win 5).blk t).view.read (Elt Ideal) A = A := by
  obtain ⟨-, -, -, -, -, -, -, -, -, -, e0, e1, -⟩ := idx_facts t
  funext y
  show A (((cfg0.win 5).blk t).view.emb y) = A y
  congr 1
  funext a; apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- BLOCK `t`, OVER ARBITRARY TABLES. The body's result for the blocks that the seven windows cut out of six tables at
    point `t`, read through the result window, is block `t` of the node update of those six tables: the stored block
    is the update of the loaded blocks (`pay_apply`), the loaded message and embedding rows are rows
    `8000 t + p` of their tables (`emb0`, `emb1`), and rows are independent (`updateAt_rows`). -/
theorem tile_eq (A0 A1 : S1000000x64.Idx → EReal) (A2 : S64x128.Idx → EReal) (A3 : S1x128.Idx → EReal)
    (A4 : S128x64.Idx → EReal) (A5 : S1x64.Idx → EReal) (t : Fin cfg0.N) :
    (cfg0.win 6).cut (grid0.coords t)
        (out0_6 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5))
      = ((cfg0.win 6).blk t).view.read (Elt Ideal) (update (N := 1000000) A0 A1 A2 A3 A4 A5 zero) := by
  rw [whole2, whole3, whole4, whole5]
  unfold out0_6
  rw [View.canon_unit_zero hz]
  simp only [View.ld_unit_zero (S := S8000x64) hz, View.ld_unit_zero (S := S64x128) hz, View.ld_unit_zero (S := S1x128) hz,
    View.ld_unit_zero (S := S128x64) hz, View.ld_unit_zero (S := S1x64) hz]
  funext j
  obtain ⟨p, q, rfl⟩ : ∃ (p : Fin 8000) (q : Fin 64), j = ix2 p q := ⟨j 0, j 1, eq_ix2 j⟩
  show k0_pay1 (F := Ideal) _ A2 A3 A4 A5 _ (ix2 p q)
    = update (N := 1000000) A0 A1 A2 A3 A4 A5 zero (((cfg0.win 6).blk t).view.emb (ix2 p q))
  rw [emb6, update_ix2]
  refine (pay_apply _ _ A2 A3 A4 A5 p q).trans ?_
  refine updateAt_rows A0 A1 _ _ A2 A3 A4 A5 zero (row t p) p q (fun l => ?_) ?_
  · show A0 (((cfg0.win 0).blk t).view.emb (ix2 p l)) = _
    rw [emb0]
  · show A1 (((cfg0.win 1).blk t).view.emb (ix2 p q)) = _
    rw [emb1]

variable (m : (ℓ : Loc nD τ sig) → Buf (Elt Ideal) ℓ) (ρ : Dev nD → PrngReg)

/-- THE RESULT TABLE: the node update of the six tables as the kernel finds them when it is launched — the message
    table and the re-laid weights and biases that the host operations before the launch wrote, and the embeddings. -/
abbrev result (c : Dev nD) : S1000000x64.Idx → EReal :=
  update (N := 1000000) (V m c main_v18) (V m c main_arg1) (V m c main_v19) (V m c main_v21) (V m c main_v20)
    (V m c main_v22) zero

/-- What point `t` writes back is block `t` of the result table: `tile_eq` at the tables the kernel finds. -/
theorem flushed_eq (c : Dev nD) (t : Fin cfg0.N) :
    (dats m 0 c).flushed 6 t = ((cfg0.win 6).blk t).view.read (Elt Ideal) (result m c) := by
  rw [flushed6]
  exact tile_eq (V m c main_v18) (V m c main_arg1) (V m c main_v19) (V m c main_v21) (V m c main_v20) (V m c main_v22) t

/-- An index of the result table is in block `t` iff each coordinate is in the block's range on its axis. -/
theorem mem_blk (t : Fin cfg0.N) (i : S1000000x64.Idx) :
    i ∈ ((cfg0.win 6).blk t).view.set ↔ ∀ a : Fin 2, win0_6.index t a * S8000x64.size a ≤ (i a).val
      ∧ (i a).val < win0_6.index t a * S8000x64.size a + S8000x64.size a := by
  show i ∈ ((View.whole main_v23).slice (win0_6.rect t)).set ↔ _
  rw [View.set_slice_whole, Rect.mem_set_unit]
  exact Iff.rfl

/-- The 125 blocks tile the table: row `r` is in block `r / 8000`. -/
theorem cover (i : S1000000x64.Idx) : ∃ t : Fin cfg0.N, (cfg0.win 6).flush t = true ∧ i ∈ ((cfg0.win 6).blk t).view.set := by
  have hi0 : (i 0).val < 1000000 := (i 0).isLt
  have hi1 : (i 1).val < 64 := (i 1).isLt
  have hN : cfg0.N = 125 := N_0
  obtain ⟨t, ht⟩ : ∃ t : Fin cfg0.N, t.val = (i 0).val / 8000 := ⟨⟨(i 0).val / 8000, by omega⟩, rfl⟩
  obtain ⟨-, -, -, -, -, -, -, -, -, -, -, -, e60, e61⟩ := idx_facts t
  refine ⟨t, flush0_6 t, ?_⟩
  rw [mem_blk]
  intro a
  match a with
  | ⟨0, _⟩ =>
    show win0_6.index t (0 : Fin 2) * 8000 ≤ (i 0).val ∧ (i 0).val < win0_6.index t (0 : Fin 2) * 8000 + 8000
    omega
  | ⟨1, _⟩ =>
    show win0_6.index t (1 : Fin 2) * 64 ≤ (i 1).val ∧ (i 1).val < win0_6.index t (1 : Fin 2) * 64 + 64
    omega

/-- So the result array ends holding the result table. -/
theorem final (c : Dev nD) : (dats m 0 c).arrAt 6 cfg0.N = result m c :=
  (dats m 0 c).arrAt_eq_of_cover 6 (result m c) (fun t _ => flushed_eq m c t) cover

/-- The kernel's run, read: the result array at the result table, the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Blocks

end
-- ==== Proof.RefUpdate.lean ====
/-
  The reference computes the node update of the whole tables.

  Read one operation at a time, the reference's result at (i, q) is the embedding entry plus the rectified sum over the
  128 hidden units of the rectified hidden value times the second weight, plus the second bias; the hidden value is the
  sum over the 64 message entries of row `i` times the first weight, plus the first bias. The two weight tables enter
  transposed and the two biases as one-row tables, exactly the arguments of `MlpResidual.update`; the message table is
  the scatter-add stage, which is carried whole and never opened.
-/
import proofs.«174238_j87832081203928_2_alg».proof.Proof.Gen.ReferenceIdeal.Read
import proofs.«174238_j87832081203928_2_alg».proof.Proof.Spec

noncomputable section

open scoped BigOperators

namespace Cert.ReferenceIdeal.RefValue

open Cert.ReferenceIdeal Cert.ReferenceIdeal.Read Idealize.ShloMosaic Idealize.ShloMosaic.ValueIdx Cert.MlpResidual

/-- The rectifier's threshold: the word of the float zero, read at the extended reals. -/
abbrev zero : EReal := Ideal.ofBits .f32 0x00000000#32

/-- The reference's rectified hidden stage at (i, k) is hidden unit `k` of node `i`: the first product's left index at
    contracted coordinate `l` is (i, l), its right index (l, k), and the bias row is read at (0, k). -/
theorem hidden_apply (x0 : (⟨S2x1250000, .i32⟩ : BufTy).Contents (Elt Ideal)) (x1 : (⟨S1000000x64, .f32⟩ : BufTy).Contents (Elt Ideal))
    (x2 : (⟨S128x64, .f32⟩ : BufTy).Contents (Elt Ideal)) (x3 : (⟨S128, .f32⟩ : BufTy).Contents (Elt Ideal))
    (i : Fin 1000000) (k : Fin 128) :
    val_main_v24 (F := Ideal) x0 x1 x2 x3 (ix2 i k)
      = Cert.MlpResidual.hidden (N := 1000000) (val_main_v18 (F := Ideal) x0 x1) (val_main_v19 (F := Ideal) x2)
          (val_main_v21 (F := Ideal) x3) zero i k := by
  have hl : ∀ l : Fin 64, lidx_main_v20 (ix2 i k) l = ix2 i l := fun l =>
    funext fun a => by match a with | ⟨0, _⟩ => rfl | ⟨1, _⟩ => rfl
  have hr : ∀ l : Fin 64, ridx_main_v20 (ix2 i k) l = ix2 l k := fun l =>
    funext fun a => by match a with | ⟨0, _⟩ => rfl | ⟨1, _⟩ => rfl
  have hb : idx_main_v22 (ix2 i k) = ix2 (0 : Fin 1) k :=
    funext fun a => by match a with | ⟨0, _⟩ => rfl | ⟨1, _⟩ => rfl
  rw [val_main_v24_apply, val_main_v23_apply, val_main_v20_apply, val_main_v22_apply, val_main_call0_v0_apply,
    val_main_call0_cst_apply, hb]
  have hsum : (∑ l : Fin 64, val_main_v18 (F := Ideal) x0 x1 (lidx_main_v20 (ix2 i k) l) * val_main_v19 (F := Ideal) x2 (ridx_main_v20 (ix2 i k) l))
      = ∑ l : Fin 64, val_main_v18 (F := Ideal) x0 x1 (ix2 i l) * val_main_v19 (F := Ideal) x2 (ix2 l k) :=
    Finset.sum_congr rfl fun l _ => by rw [hl, hr]
  rw [hsum]
  rfl

/-- THE REFERENCE'S RESULT is the node update of its message stage, the embeddings, the two transposed weight stages
    and the two bias-row stages. -/
theorem ref_eq_update (x0 : (⟨S2x1250000, .i32⟩ : BufTy).Contents (Elt Ideal)) (x1 : (⟨S1000000x64, .f32⟩ : BufTy).Contents (Elt Ideal))
    (x2 : (⟨S128x64, .f32⟩ : BufTy).Contents (Elt Ideal)) (x3 : (⟨S128, .f32⟩ : BufTy).Contents (Elt Ideal))
    (x4 : (⟨S64x128, .f32⟩ : BufTy).Contents (Elt Ideal)) (x5 : (⟨S64, .f32⟩ : BufTy).Contents (Elt Ideal)) :
    val_main_v31 (F := Ideal) x0 x1 x2 x3 x4 x5
      = update (N := 1000000) (val_main_v18 (F := Ideal) x0 x1) x1 (val_main_v19 (F := Ideal) x2) (val_main_v21 (F := Ideal) x3)
          (val_main_v25 (F := Ideal) x4) (val_main_v27 (F := Ideal) x5) zero := by
  funext j
  obtain ⟨i, q, rfl⟩ : ∃ (i : Fin 1000000) (q : Fin 64), j = ix2 i q := ⟨j 0, j 1, eq_ix2 j⟩
  rw [update_ix2]
  rw [val_main_v31_apply, val_main_v30_apply, val_main_v29_apply, val_main_v26_apply, val_main_v28_apply,
    val_main_call1_v0_apply, val_main_call1_cst_apply]
  have hl : ∀ k : Fin 128, lidx_main_v26 (ix2 i q) k = ix2 i k := fun k =>
    funext fun a => by match a with | ⟨0, _⟩ => rfl | ⟨1, _⟩ => rfl
  have hr : ∀ k : Fin 128, ridx_main_v26 (ix2 i q) k = ix2 k q := fun k =>
    funext fun a => by match a with | ⟨0, _⟩ => rfl | ⟨1, _⟩ => rfl
  have hb : idx_main_v28 (ix2 i q) = ix2 (0 : Fin 1) q :=
    funext fun a => by match a with | ⟨0, _⟩ => rfl | ⟨1, _⟩ => rfl
  have hsum : (∑ k : Fin 128, val_main_v24 (F := Ideal) x0 x1 x2 x3 (lidx_main_v26 (ix2 i q) k) * val_main_v25 (F := Ideal) x4 (ridx_main_v26 (ix2 i q) k))
      = ∑ k : Fin 128, Cert.MlpResidual.hidden (N := 1000000) (val_main_v18 (F := Ideal) x0 x1) (val_main_v19 (F := Ideal) x2)
          (val_main_v21 (F := Ideal) x3) zero i k * val_main_v25 (F := Ideal) x4 (ix2 k q) :=
    Finset.sum_congr rfl fun k _ => by rw [hl, hr, hidden_apply]
  rw [hsum, hb]
  rfl

end Cert.ReferenceIdeal.RefValue

end
-- ==== Proof.LibVecRow.lean ====
/-
  A vector laid as a one-row matrix, two ways.

  A vector of length a can be turned into a matrix [1, a] by a reshape or by a broadcast that puts the vector's axis
  on the matrix's second axis. Both matrices read, at (u, i), the vector's entry i: they are one array. Stated over
  the library only, for any element type.
-/
import Idealize.ShloMosaic.Lib.ValueLayout

noncomputable section

namespace Cert.LibVecRow

open Idealize.ShloMosaic Idealize.ShloMosaic.ValueIdx

/-- A vector reshaped to a one-row matrix is the vector broadcast along the second axis: both read, at (u, i),
    the vector's entry i. -/
theorem shapeCast_vec_eq_broadcastInDim {α : Type} {a : ℕ} (x : (⟨1, ![a]⟩ : Shape).Idx → α)
    (h : (⟨1, ![a]⟩ : Shape).ShapeCasts ⟨2, ![1, a]⟩)
    (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, i, rfl⟩ : ∃ (u : Fin 1) (i : Fin a), j = ix2 u i := ⟨j 0, j 1, eq_ix2 j⟩
  rw [shapeCast_a_1a_apply]
  symm
  refine broadcastInDim_apply ![1] hb x (ix2 u i) (ix1 i) ?_
  intro c
  have hc : c = 0 := Subsingleton.elim _ _
  subst hc
  show i.val = if a = 1 then 0 else i.val
  have := i.isLt
  split <;> omega

end Cert.LibVecRow

end
-- ==== Proof.Glue.lean ====
/-
  The tables the kernel is launched on are the reference's own stages.

  Before the launch the kernel's program builds the message table (gather the source rows, scatter-add them onto the
  destination rows of a zero table), transposes the two weight tables and lays each bias vector as a one-row table.
  The reference's first operations are the same gather and scatter-add on the same index columns and the same two
  transposes, so those three tables are the reference's stages term for term; the reference lays a bias as a row by a
  broadcast along the second axis where the kernel's program reshapes it, and the two rows are one array.
  Each table is first read off the host operations over an ARBITRARY valuation of the buffers, then instantiated at
  the launch memory.
-/
import proofs.«174238_j87832081203928_2_alg».proof.Proof.Gen.KernelIdeal.Frame
import proofs.«174238_j87832081203928_2_alg».proof.Proof.Gen.ReferenceIdeal.Read
import proofs.«174238_j87832081203928_2_alg».proof.Proof.LibVecRow
import Idealize.ShloMosaic.Lib.StableHlo.Run

noncomputable section

namespace Cert.Glue

open Idealize.ShloMosaic Idealize.ShloMosaic.TcCoe Idealize.SL.Sem Idealize.ShloMosaic.StableHlo
open Cert.KernelIdeal Cert.KernelIdeal.Gen

/-- After the host operations, from any contents `W` of the buffers: the message table is the reference's
    scatter-add stage of the two arguments it is computed from. -/
theorem after_msgs (W : Valuation τ sig (Elt Ideal)) :
    (after hostOps0 W (Proc.devRef .tc main_v18) : S1000000x64.Idx → EReal)
      = Cert.ReferenceIdeal.Read.val_main_v18 (F := Ideal) (W (Proc.devRef .tc main_arg0)) (W (Proc.devRef .tc main_arg1)) := by
  after_results_simp
  rfl

/-- The first weight table, transposed, is the reference's transposed stage. -/
theorem after_wt1 (W : Valuation τ sig (Elt Ideal)) :
    (after hostOps0 W (Proc.devRef .tc main_v19) : S64x128.Idx → EReal)
      = Cert.ReferenceIdeal.Read.val_main_v19 (F := Ideal) (W (Proc.devRef .tc main_arg2)) := by
  after_results_simp
  rfl

/-- The second weight table, transposed, is the reference's transposed stage. -/
theorem after_wt2 (W : Valuation τ sig (Elt Ideal)) :
    (after hostOps0 W (Proc.devRef .tc main_v20) : S128x64.Idx → EReal)
      = Cert.ReferenceIdeal.Read.val_main_v25 (F := Ideal) (W (Proc.devRef .tc main_arg4)) := by
  after_results_simp
  rfl

/-- The first bias, reshaped to a row, is the reference's row broadcast of it. -/
theorem after_b1 (W : Valuation τ sig (Elt Ideal)) :
    (after hostOps0 W (Proc.devRef .tc main_v21) : S1x128.Idx → EReal)
      = Cert.ReferenceIdeal.Read.val_main_v21 (F := Ideal) (W (Proc.devRef .tc main_arg3)) := by
  after_results_simp
  exact Cert.LibVecRow.shapeCast_vec_eq_broadcastInDim (a := 128) _ _ _

/-- The second bias, reshaped to a row, is the reference's row broadcast of it. -/
theorem after_b2 (W : Valuation τ sig (Elt Ideal)) :
    (after hostOps0 W (Proc.devRef .tc main_v22) : S1x64.Idx → EReal)
      = Cert.ReferenceIdeal.Read.val_main_v27 (F := Ideal) (W (Proc.devRef .tc main_arg5)) := by
  after_results_simp
  exact Cert.LibVecRow.shapeCast_vec_eq_broadcastInDim (a := 64) _ _ _

/-! ## At the launch memory -/

variable (m : (ℓ : Loc nD τ sig) → Buf (Elt Ideal) ℓ)

/-- The message table the kernel is launched on. -/
theorem msgs (c : Dev nD) :
    (V m c main_v18 : S1000000x64.Idx → EReal)
      = Cert.ReferenceIdeal.Read.val_main_v18 (F := Ideal) (m ((c : Thread nD τ).loc main_arg0)) (m ((c : Thread nD τ).loc main_arg1)) :=
  after_msgs fun b => m (c, b)

/-- The transposed first weight table the kernel is launched on. -/
theorem wt1 (c : Dev nD) :
    (V m c main_v19 : S64x128.Idx → EReal) = Cert.ReferenceIdeal.Read.val_main_v19 (F := Ideal) (m ((c : Thread nD τ).loc main_arg2)) :=
  after_wt1 fun b => m (c, b)

/-- The transposed second weight table the kernel is launched on. -/
theorem wt2 (c : Dev nD) :
    (V m c main_v20 : S128x64.Idx → EReal) = Cert.ReferenceIdeal.Read.val_main_v25 (F := Ideal) (m ((c : Thread nD τ).loc main_arg4)) :=
  after_wt2 fun b => m (c, b)

/-- The first bias row the kernel is launched on. -/
theorem b1 (c : Dev nD) :
    (V m c main_v21 : S1x128.Idx → EReal) = Cert.ReferenceIdeal.Read.val_main_v21 (F := Ideal) (m ((c : Thread nD τ).loc main_arg3)) :=
  after_b1 fun b => m (c, b)

/-- The second bias row the kernel is launched on. -/
theorem b2 (c : Dev nD) :
    (V m c main_v22 : S1x64.Idx → EReal) = Cert.ReferenceIdeal.Read.val_main_v27 (F := Ideal) (m ((c : Thread nD τ).loc main_arg5)) :=
  after_b2 fun b => m (c, b)

end Cert.Glue

end
-- ==== Proof.lean ====
/-
  A graph layer's node update, computed two ways, is one function at the extended reals.

  Both programs first build a message table `M` from the edge list and the embedding table `E` (one row of 64 numbers
  per node, a million nodes): the rows of `E` at the edges' sources are gathered and scatter-added onto the edges'
  destinations. Both then return

      E + max (max (M · W1ᵀ + b1) 0 · W2ᵀ + b2) 0 .

  The reference applies whole-table operations. The kernel's program walks the table in 125 blocks of 8000 rows, each
  block's two products taken with their operands narrowed to a shorter float format. At the extended reals the
  narrowing is the identity and a product accumulated from zero is the plain finite sum, so what a block stores is the
  node update `MlpResidual.update` of its rows (Proof/Payload.lean); rows are independent and the blocks tile the table,
  so the kernel's result array is the update of the tables it is launched on (Proof/Blocks.lean). The reference's
  result, read one operation at a time, is the update of its own stages (Proof/RefUpdate.lean), and those stages are
  the tables the kernel is launched on: the message table by the same gather and scatter-add, never opened, the
  weights by the same transposes, the bias rows by a reshape against a broadcast (Proof/Glue.lean). No law beyond
  reading sums index by index is used, so the finiteness of the inputs is never opened.

  The frames of the two kernel programs are the generated ones; the reference's is its generated run with the result
  dropped; the idealization rewrote nothing, so `preserves` is trivial.
-/
import proofs.«174238_j87832081203928_2_alg».proof.Defs
import proofs.«174238_j87832081203928_2_alg».proof.Proof.Gen.Kernel
import proofs.«174238_j87832081203928_2_alg».proof.Proof.Gen.Kernel.Skeleton
import proofs.«174238_j87832081203928_2_alg».proof.Proof.Gen.Kernel.Launch
import proofs.«174238_j87832081203928_2_alg».proof.Proof.Gen.Kernel.Points
import proofs.«174238_j87832081203928_2_alg».proof.Proof.Gen.Kernel.Frame
import proofs.«174238_j87832081203928_2_alg».proof.Proof.Gen.KernelIdeal
import proofs.«174238_j87832081203928_2_alg».proof.Proof.Gen.KernelIdeal.Skeleton
import proofs.«174238_j87832081203928_2_alg».proof.Proof.Gen.KernelIdeal.Launch
import proofs.«174238_j87832081203928_2_alg».proof.Proof.Gen.KernelIdeal.Points
import proofs.«174238_j87832081203928_2_alg».proof.Proof.Gen.KernelIdeal.Frame
import proofs.«174238_j87832081203928_2_alg».proof.Proof.Gen.ReferenceIdeal
import proofs.«174238_j87832081203928_2_alg».proof.Proof.Gen.Pre_finite_inputs
import proofs.«174238_j87832081203928_2_alg».proof.Proof.Gen.KernelIdeal.Value
import proofs.«174238_j87832081203928_2_alg».proof.Proof.Gen.ReferenceIdeal.Run
import proofs.«174238_j87832081203928_2_alg».proof.Proof.Gen.ReferenceIdeal.Read
import proofs.«174238_j87832081203928_2_alg».proof.Proof.Blocks
import proofs.«174238_j87832081203928_2_alg».proof.Proof.RefUpdate
import proofs.«174238_j87832081203928_2_alg».proof.Proof.Glue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The tables the kernel is launched on are the reference's stages of the launch arguments, so the kernel's result
    table is the node update of those stages. -/
theorem result_eq (m : (ℓ : Loc Cert.KernelIdeal.nD Cert.KernelIdeal.τ Cert.KernelIdeal.sig) → Buf (Elt Ideal) ℓ)
    (c : Dev Cert.KernelIdeal.nD) :
    Cert.KernelIdeal.Blocks.result m c
      = Cert.MlpResidual.update (N := 1000000)
          (Cert.ReferenceIdeal.Read.val_main_v18 (F := Ideal) (m ((c : Thread Cert.KernelIdeal.nD Cert.KernelIdeal.τ).loc Cert.KernelIdeal.main_arg0))
            (m ((c : Thread Cert.KernelIdeal.nD Cert.KernelIdeal.τ).loc Cert.KernelIdeal.main_arg1)))
          (m ((c : Thread Cert.KernelIdeal.nD Cert.KernelIdeal.τ).loc Cert.KernelIdeal.main_arg1))
          (Cert.ReferenceIdeal.Read.val_main_v19 (F := Ideal) (m ((c : Thread Cert.KernelIdeal.nD Cert.KernelIdeal.τ).loc Cert.KernelIdeal.main_arg2)))
          (Cert.ReferenceIdeal.Read.val_main_v21 (F := Ideal) (m ((c : Thread Cert.KernelIdeal.nD Cert.KernelIdeal.τ).loc Cert.KernelIdeal.main_arg3)))
          (Cert.ReferenceIdeal.Read.val_main_v25 (F := Ideal) (m ((c : Thread Cert.KernelIdeal.nD Cert.KernelIdeal.τ).loc Cert.KernelIdeal.main_arg4)))
          (Cert.ReferenceIdeal.Read.val_main_v27 (F := Ideal) (m ((c : Thread Cert.KernelIdeal.nD Cert.KernelIdeal.τ).loc Cert.KernelIdeal.main_arg5)))
          Cert.KernelIdeal.Payload.zero := by
  show Cert.MlpResidual.update (N := 1000000) (Cert.KernelIdeal.Gen.V m c Cert.KernelIdeal.main_v18)
      (Cert.KernelIdeal.Gen.V m c Cert.KernelIdeal.main_arg1) (Cert.KernelIdeal.Gen.V m c Cert.KernelIdeal.main_v19)
      (Cert.KernelIdeal.Gen.V m c Cert.KernelIdeal.main_v21) (Cert.KernelIdeal.Gen.V m c Cert.KernelIdeal.main_v20)
      (Cert.KernelIdeal.Gen.V m c Cert.KernelIdeal.main_v22) Cert.KernelIdeal.Payload.zero = _
  rw [Cert.Glue.msgs m c, Cert.Glue.wt1 m c, Cert.Glue.wt2 m c, Cert.Glue.b1 m c, Cert.Glue.b2 m c,
    Cert.KernelIdeal.Gen.V_main_arg1 m c]

/-- At the extended reals the kernel's result array ends at the node update of the tables it is launched on
    (`Blocks.run`), the reference's at the node update of its stages (`RefValue.ref_eq_update`) of arguments that agree:
    one table (`result_eq`). -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5]
  refine (Cert.ReferenceIdeal.Read.val_main_v31_eq _ _ _ _ _ _).trans ?_
  rw [Cert.ReferenceIdeal.RefValue.ref_eq_update]
  exact (result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
